-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : IVec S4096x4096 32) (main_arg2 : FVec F S4096 .f32) (main_arg3 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S1x4096, .f32⟩
  | .hbm, ⟨6, _⟩ => ⟨S1x4096, .f32⟩
  | .hbm, ⟨7, _⟩ => ⟨S16384x4096, .f32⟩
  | .hbm, ⟨8, _⟩ => ⟨S8x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x4096.size a
  hwx0_4 : ∀ i : grid0.Coords, EltTy.bits .f32 = 32 ∨ (Rect.block (s := S16384x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S8x2048x4096, .f32⟩
  | .hbm, ⟨9, _⟩ => ⟨S1x1x4096, .f32⟩
  | .hbm, ⟨10, _⟩ => ⟨S8x2048x4096, .f32⟩
  | .hbm, ⟨11, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pieces.lean ====
/-
  What one run of the kernel body leaves behind, as values, at any float instance.

  The body keeps a [1024, 1024] accumulator in scratch. At the first step of the contraction axis it zeroes the
  accumulator and then adds the current block product; at every later step it adds the block product to what the step
  before left; at the last step it also writes `accumulator · scale + bias` to the output block. Each of these is one
  whole-buffer store, so what a buffer ends holding is the last store's value, its loads reading the whole buffers:

    first step   : scratch = step x q 0
    middle steps : scratch = step x q acc
    last step    : scratch = step x q acc,   output = finish scale bias (step x q acc)

  where `step` is the generated payload `k0_pay2` (accumulator + x·qᵀ), `finish` is `k0_pay3` (acc · scale + bias) and
  `0` is `k0_pay1` (the zero block).
-/
import proofs.«152317_j82944408420940_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First step of the contraction axis: the accumulator is zeroed, read back, and the block product added. -/
theorem scratch_first (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .f32) (x1 : Vec F S1024x512 .i32) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz]

/-- A middle step: the block product is added to what the step before left. -/
theorem scratch_middle (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S1024x512 .i32) (x2 : Vec F S1x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg3.read_unread, harg4.read_unread, harg8.read_unread,
    View.ld_unit_zero (S := S1024x512) hz, View.ld_unit_zero (S := S1024x1024) hz]

/-- The last step leaves the same in the accumulator … -/
theorem scratch_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .i32) (x2 : Vec F S1x1024 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg8.read_unread,
    View.ld_unit_zero (S := S1024x512) hz, View.ld_unit_zero (S := S1024x1024) hz]

/-- … and writes the finished block: the accumulator just stored, read back, times the scale row plus the bias row. -/
theorem output_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .i32) (x2 : Vec F S1x1024 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 x2 x3 (k0_pay2 x0 x1 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread,
    View.ld_unit_zero (S := S1024x512) hz, View.ld_unit_zero (S := S1024x1024) hz, View.ld_unit_zero (S := S1x1024) hz,
    View.readCov_unit_zero (S := S1024x1024) _ hz]

end Cert.KernelIdeal.Pieces

end
-- ==== Proof.Spec.lean ====
/-
  The quantised linear layer, entry by entry, over the extended reals.

  For a row `r` of the flattened activations `X : [16384, 4096]`, an output channel `o`, integer weights
  `Q : [4096, 4096]` (read as the integers they are), a per-channel scale `s` and a bias `b`:

      out (r, o) = (Σ_{k < 4096} X (r, k) · Q (o, k)) · s o + b o          (scale applied once, after the contraction)
                 = Σ_{k < 4096} X (r, k) · (Q (o, k) · s o) + b o          (weights de-quantised first)

  The first form is what a contraction accumulated over blocks of the `k` axis computes: `partialDot` is the running sum
  over `k < n`, and advancing it by one block of 512 adds that block's 512 products (`partialDot_block`). The two forms
  agree when the activations and the scale are finite (`scale_out`): pulling a factor out of a sum is distributivity,
  which fails on the extended reals when an infinity meets terms of both signs.
-/
import Idealize.ShloMosaic.PureOps.Ideal
import Idealize.ShloMosaic.Lib.ValueIdx

noncomputable section

namespace Cert.QLinear

open Idealize.ShloMosaic Idealize.ShloMosaic.ValueIdx

/-- An integer word as the extended real it denotes. -/
abbrev intVal (b : BitVec 32) : EReal := ((b.toInt : ℝ) : EReal)

/-- The product of activation `(r, k)` and weight `(o, k)`; zero past the contraction's extent, so that the running
    sum below can be taken over plain naturals. -/
def term (X : (⟨2, ![16384, 4096]⟩ : Shape).Idx → EReal) (Q : (⟨2, ![4096, 4096]⟩ : Shape).Idx → BitVec 32)
    (r : Fin 16384) (o : Fin 4096) (k : ℕ) : EReal :=
  if h : k < 4096 then X (ix2 r ⟨k, h⟩) * intVal (Q (ix2 o ⟨k, h⟩)) else 0

theorem term_of_lt (X : (⟨2, ![16384, 4096]⟩ : Shape).Idx → EReal) (Q : (⟨2, ![4096, 4096]⟩ : Shape).Idx → BitVec 32)
    (r : Fin 16384) (o : Fin 4096) (k : ℕ) (h : k < 4096) :
    term X Q r o k = X (ix2 r ⟨k, h⟩) * intVal (Q (ix2 o ⟨k, h⟩)) := dif_pos h

/-- The contraction's running sum over `k < n`. -/
def partialDot (X : (⟨2, ![16384, 4096]⟩ : Shape).Idx → EReal) (Q : (⟨2, ![4096, 4096]⟩ : Shape).Idx → BitVec 32)
    (r : Fin 16384) (o : Fin 4096) (n : ℕ) : EReal :=
  ∑ k ∈ Finset.range n, term X Q r o k

theorem partialDot_zero (X : (⟨2, ![16384, 4096]⟩ : Shape).Idx → EReal) (Q : (⟨2, ![4096, 4096]⟩ : Shape).Idx → BitVec 32)
    (r : Fin 16384) (o : Fin 4096) : partialDot X Q r o 0 = 0 := Finset.sum_range_zero _

/-- One more block of 512 contraction positions, starting at `n` (with `n + 512 ≤ 4096`): the running sum grows by the
    block's products, read through `f`, the block's own 512 coordinates. -/
theorem partialDot_block (X : (⟨2, ![16384, 4096]⟩ : Shape).Idx → EReal) (Q : (⟨2, ![4096, 4096]⟩ : Shape).Idx → BitVec 32)
    (r : Fin 16384) (o : Fin 4096) (n : ℕ) (hn : n + 512 ≤ 4096) (f : Fin 512 → EReal)
    (hf : ∀ kk : Fin 512, f kk = X (ix2 r ⟨n + kk.val, by have := kk.isLt; omega⟩)
      * intVal (Q (ix2 o ⟨n + kk.val, by have := kk.isLt; omega⟩))) :
    partialDot X Q r o n + ∑ kk : Fin 512, f kk = partialDot X Q r o (n + 512) := by
  unfold partialDot
  rw [Finset.sum_range_add, Finset.sum_fin_eq_sum_range]
  refine congrArg _ (Finset.sum_congr rfl fun kk hk => ?_)
  have hk' : kk < 512 := Finset.mem_range.mp hk
  rw [dif_pos hk', hf, term_of_lt X Q r o (n + kk) (by omega)]

/-- The whole contraction as a sum over the 4096 coordinates. -/
theorem partialDot_full (X : (⟨2, ![16384, 4096]⟩ : Shape).Idx → EReal) (Q : (⟨2, ![4096, 4096]⟩ : Shape).Idx → BitVec 32)
    (r : Fin 16384) (o : Fin 4096) :
    partialDot X Q r o 4096 = ∑ k : Fin 4096, X (ix2 r k) * intVal (Q (ix2 o k)) := by
  unfold partialDot
  rw [Finset.sum_fin_eq_sum_range]
  refine Finset.sum_congr rfl fun k hk => ?_
  have hk' : k < 4096 := Finset.mem_range.mp hk
  rw [dif_pos hk', term_of_lt X Q r o k hk']

/-- The embedding of the reals into the extended reals carries finite sums to finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW joining the two programs: with finite activations `x k` and a finite scale `s`, scaling the contraction once
    is contracting against the scaled weights. (The weights `w k` are integers, hence finite.) -/
theorem scale_out {ι : Type*} [Fintype ι] (x : ι → EReal) (w : ι → ℤ) (s : EReal)
    (hx : ∀ k, ∃ a : ℝ, x k = (a : EReal)) (hs : ∃ a : ℝ, s = (a : EReal)) :
    (∑ k, x k * ((w k : ℝ) : EReal)) * s = ∑ k, x k * (((w k : ℝ) : EReal) * s) := by
  obtain ⟨sr, rfl⟩ := hs
  choose xr hxr using hx
  simp only [hxr, ← EReal.coe_mul, ← coe_sum]
  rw [Finset.sum_mul]
  refine congrArg _ (Finset.sum_congr rfl fun k _ => ?_)
  ring

end Cert.QLinear

end
-- ==== Proof.Payload.lean ====
/-
  The body's arithmetic, read entry by entry over the extended reals.

  `k0_pay2 x q acc` is one accumulation step, `acc + x · qᵀ`: at `(p, c)` it is `acc (p, c)` plus the sum over the block's
  512 contraction positions of `x (p, k)` times the integer `q (c, k)` (both operands are contracted along their LAST
  axis; rounding to bf16 is the identity on the extended reals, and an integer converts to itself).
  `k0_pay3 s b acc` is the epilogue: at `(p, c)`, `acc (p, c) · s (0, c) + b (0, c)` — the scale and bias rows are
  broadcast down the 1024 rows. `k0_pay1` is the zero block.
-/
import proofs.«152317_j82944408420940_1_alg».proof.Proof.Gen.KernelIdeal.Skeleton
import proofs.«152317_j82944408420940_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen Cert.QLinear

/-- The block product's dimension numbers: both operands contracted along axis 1, rows of the left operand against rows
    of the right. -/
abbrev DD : DotDims S1024x512 S1024x512 S1024x1024 := dot_S1024x512_S1024x512_S1024x1024_1_1_0_0_n_n

theorem lhs0 (j : S1024x1024.Idx) (q : DD.contr.Idx) : (DD.lhsIdx j q 0).val = (j 0).val := by
  unfold DotDims.lhsIdx
  rw [dif_neg (show ¬(0 : Fin S1024x512.rank) ∈ DD.lhsBatch by decide),
    dif_pos (show (0 : Fin S1024x512.rank) ∈ DD.lhsNonContracting by decide)]
  rfl
theorem lhs1 (j : S1024x1024.Idx) (q : DD.contr.Idx) : (DD.lhsIdx j q 1).val = (q ⟨0, by decide⟩).val :=
  DD.lhsIdx_val_of_single rfl j q
theorem rhs0 (j : S1024x1024.Idx) (q : DD.contr.Idx) : (DD.rhsIdx j q 0).val = (j 1).val := by
  unfold DotDims.rhsIdx
  rw [dif_neg (show ¬(0 : Fin S1024x512.rank) ∈ DD.rhsBatch by decide),
    dif_pos (show (0 : Fin S1024x512.rank) ∈ DD.rhsNonContracting by decide)]
  rfl
theorem rhs1 (j : S1024x1024.Idx) (q : DD.contr.Idx) : (DD.rhsIdx j q 1).val = (q ⟨0, by decide⟩).val :=
  DD.rhsIdx_val_of_single rfl j q

/-- The block product into the zero accumulator at `(p, c)`: row `p` of the left block against row `c` of the right. -/
theorem blockProduct_apply (l : FVec Ideal S1024x512 .bf16) (r : FVec Ideal S1024x512 .bf16) (p c : Fin 1024) :
    matmul DD none l r (constant S1024x1024 .f32 0x00000000#32) (ix2 p c) = ∑ k : Fin 512, l (ix2 p k) * r (ix2 c k) := by
  simp only [matmul]
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 p c) ((contrEquiv1 DD 512 rfl rfl).symm k) = ix2 p k := funext fun a => Fin.ext (by
    match a with
    | ⟨0, _⟩ => exact lhs0 _ _
    | ⟨1, _⟩ => exact (lhs1 _ _).trans hk)
  have er : DD.rhsIdx (ix2 p c) ((contrEquiv1 DD 512 rfl rfl).symm k) = ix2 c k := funext fun a => Fin.ext (by
    match a with
    | ⟨0, _⟩ => exact rhs0 _ _
    | ⟨1, _⟩ => exact (rhs1 _ _).trans hk)
  rw [el, er]

/-- One accumulation step at `(p, c)`. -/
theorem step_apply (x : Vec Ideal S1024x512 .f32) (q : Vec Ideal S1024x512 .i32) (acc : Vec Ideal S1024x1024 .f32)
    (p c : Fin 1024) :
    k0_pay2 x q acc (ix2 p c) = acc (ix2 p c) + ∑ k : Fin 512, x (ix2 p k) * intVal (q (ix2 c k)) := by
  unfold k0_pay2
  rw [shapeCast_self, shapeCast_self, addf_apply]
  refine congrArg (acc (ix2 p c) + ·) ?_
  exact blockProduct_apply _ _ p c

/-- The zero block is zero everywhere. -/
theorem zero_apply (j : S1024x1024.Idx) : k0_pay1 (F := Ideal) j = 0 := by
  unfold k0_pay1
  rw [shapeCast_self]
  exact Ideal.ofBits_zero_f32

/-- The epilogue at `(p, c)`. -/
theorem finish_apply (s b : Vec Ideal S1x1024 .f32) (acc : Vec Ideal S1024x1024 .f32) (p c : Fin 1024) :
    k0_pay3 s b acc (ix2 p c) = acc (ix2 p c) * s (ix2 (0 : Fin 1) c) + b (ix2 (0 : Fin 1) c) := by
  unfold k0_pay3
  rw [shapeCast_self, shapeCast_self, addf_apply, mulf_apply, broadcastTo_1b_ab_apply, broadcastTo_1b_ab_apply]

end Cert.KernelIdeal.Payload

end
-- ==== Proof.Blocks.lean ====
/-
  Where each block of the launch sits in its array.

  The grid is 16 × 4 × 8: row tile `i`, column tile `j`, contraction step `s`, and point `t` of the launch order has
  `i = t / 32`, `j = t / 8 % 4`, `s = t % 8`. At point `t`
    the activation block is rows `1024 i ..` and contraction positions `512 s ..` of the [16384, 4096] activations;
    the weight block is rows (output channels) `1024 j ..` and contraction positions `512 s ..` of the [4096, 4096] weights;
    the scale and bias blocks are columns `1024 j ..` of their [1, 4096] rows;
    the output block is rows `1024 i ..`, columns `1024 j ..` of the [16384, 4096] result.
  An element of a block sits at block index × block size + its coordinate inside the block, on each axis.
-/
import proofs.«152317_j82944408420940_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

/-! ## The index maps over the grid, decided once -/

theorem idx_x : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem idx_q : ∀ t : Fin cfg0.N, win0_1.index t (0 : Fin 2) = t.val / 8 % 4 ∧ win0_1.index t (1 : Fin 2) = t.val % 8 :=
  (by decide +kernel : ∀ t : Fin grid0.N, win0_1.index t (0 : Fin 2) = t.val / 8 % 4 ∧ win0_1.index t (1 : Fin 2) = t.val % 8)
theorem idx_s : ∀ t : Fin cfg0.N, win0_2.index t (0 : Fin 2) = 0 ∧ win0_2.index t (1 : Fin 2) = t.val / 8 % 4 :=
  (by decide +kernel : ∀ t : Fin grid0.N, win0_2.index t (0 : Fin 2) = 0 ∧ win0_2.index t (1 : Fin 2) = t.val / 8 % 4)
theorem idx_b : ∀ t : Fin cfg0.N, win0_3.index t (0 : Fin 2) = 0 ∧ win0_3.index t (1 : Fin 2) = t.val / 8 % 4 :=
  (by decide +kernel : ∀ t : Fin grid0.N, win0_3.index t (0 : Fin 2) = 0 ∧ win0_3.index t (1 : Fin 2) = t.val / 8 % 4)
theorem idx_o : ∀ t : Fin cfg0.N, win0_4.index t (0 : Fin 2) = t.val / 32 ∧ win0_4.index t (1 : Fin 2) = t.val / 8 % 4 :=
  (by decide +kernel : ∀ t : Fin grid0.N, win0_4.index t (0 : Fin 2) = t.val / 32 ∧ win0_4.index t (1 : Fin 2) = t.val / 8 % 4)

/-! ## Rows, columns and contraction positions of a point's blocks -/

theorem lt_N (t : Fin cfg0.N) : t.val < 512 := lt_of_lt_of_eq t.isLt (show cfg0.N = 512 from N_0)

/-- Row `p` of point `t`'s row tile, in the flattened activations and in the result. -/
def rowOf (t : Fin cfg0.N) (p : Fin 1024) : Fin 16384 := ⟨t.val / 32 * 1024 + p.val, by have := lt_N t; have := p.isLt; omega⟩
/-- Column `q` of point `t`'s column tile: an output channel. -/
def colOf (t : Fin cfg0.N) (q : Fin 1024) : Fin 4096 := ⟨t.val / 8 % 4 * 1024 + q.val, by have := q.isLt; omega⟩
/-- Position `k` of point `t`'s contraction block. -/
def posOf (t : Fin cfg0.N) (k : Fin 512) : Fin 4096 := ⟨512 * (t.val % 8) + k.val, by have := k.isLt; omega⟩

variable {F : FTy → Type} [FloatOps F]
variable (m : (ℓ : Loc nD τ sig) → Buf (Elt F) ℓ)

/-- The activation block at `(p, k)`. -/
theorem xblk_apply (c : Dev nD) (t : Fin cfg0.N) (p : Fin 1024) (k : Fin 512) :
    (iblk m c 0 t : Vec F S1024x512 .f32) (ix2 p k) = V m c main_v0 (ix2 (rowOf t p) (posOf t k)) := by
  unfold iblk
  rw [View.read_apply]
  show V m c main_v0 _ = V m c main_v0 _
  refine congrArg (V m c main_v0) (funext fun a => Fin.ext ?_)
  match a with
  | ⟨0, _⟩ => show win0_0.index t 0 * 1024 + 1 * p.val = t.val / 32 * 1024 + p.val; rw [(idx_x t).1]; omega
  | ⟨1, _⟩ => show win0_0.index t 1 * 512 + 1 * k.val = 512 * (t.val % 8) + k.val; rw [(idx_x t).2]; omega

/-- The weight block at `(q, k)`. -/
theorem qblk_apply (c : Dev nD) (t : Fin cfg0.N) (q : Fin 1024) (k : Fin 512) :
    (iblk m c 1 t : Vec F S1024x512 .i32) (ix2 q k) = V m c main_arg1 (ix2 (colOf t q) (posOf t k)) := by
  unfold iblk
  rw [View.read_apply]
  show V m c main_arg1 _ = V m c main_arg1 _
  refine congrArg (V m c main_arg1) (funext fun a => Fin.ext ?_)
  match a with
  | ⟨0, _⟩ => show win0_1.index t 0 * 1024 + 1 * q.val = t.val / 8 % 4 * 1024 + q.val; rw [(idx_q t).1]; omega
  | ⟨1, _⟩ => show win0_1.index t 1 * 512 + 1 * k.val = 512 * (t.val % 8) + k.val; rw [(idx_q t).2]; omega

/-- The scale block at `(0, q)`. -/
theorem sblk_apply (c : Dev nD) (t : Fin cfg0.N) (q : Fin 1024) :
    (iblk m c 2 t : Vec F S1x1024 .f32) (ix2 (0 : Fin 1) q) = V m c main_v1 (ix2 (0 : Fin 1) (colOf t q)) := by
  unfold iblk
  rw [View.read_apply]
  show V m c main_v1 _ = V m c main_v1 _
  refine congrArg (V m c main_v1) (funext fun a => Fin.ext ?_)
  match a with
  | ⟨0, _⟩ => show win0_2.index t 0 * 1 + 1 * 0 = 0; rw [(idx_s t).1]
  | ⟨1, _⟩ => show win0_2.index t 1 * 1024 + 1 * q.val = t.val / 8 % 4 * 1024 + q.val; rw [(idx_s t).2]; omega

/-- The bias block at `(0, q)`. -/
theorem bblk_apply (c : Dev nD) (t : Fin cfg0.N) (q : Fin 1024) :
    (iblk m c 3 t : Vec F S1x1024 .f32) (ix2 (0 : Fin 1) q) = V m c main_v2 (ix2 (0 : Fin 1) (colOf t q)) := by
  unfold iblk
  rw [View.read_apply]
  show V m c main_v2 _ = V m c main_v2 _
  refine congrArg (V m c main_v2) (funext fun a => Fin.ext ?_)
  match a with
  | ⟨0, _⟩ => show win0_3.index t 0 * 1 + 1 * 0 = 0; rw [(idx_b t).1]
  | ⟨1, _⟩ => show win0_3.index t 1 * 1024 + 1 * q.val = t.val / 8 % 4 * 1024 + q.val; rw [(idx_b t).2]; omega

end Cert.KernelIdeal.Blocks

end
-- ==== Proof.Accum.lean ====
/-
  The accumulator over the contraction axis, by induction on the launch order.

  After the body has run at point `t` (row tile `i`, column tile `j`, contraction step `s = t % 8`) the scratch accumulator
  holds, at `(p, c)`, the contraction's running sum over the first `512 (s + 1)` positions, for row `1024 i + p` of the
  activations and output channel `1024 j + c`:
    at `s = 0` the accumulator is zeroed and the first block's 512 products added;
    at `s > 0` the point before is the same tile's step `s - 1`, and this step adds the next 512 products.
  At `s = 7` the sum is complete and the output block is `sum · scale + bias`.
-/
import proofs.«152317_j82944408420940_1_alg».proof.Proof.Pieces
import proofs.«152317_j82944408420940_1_alg».proof.Proof.Payload
import proofs.«152317_j82944408420940_1_alg».proof.Proof.Blocks

set_option maxRecDepth 16384

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Blocks Cert.KernelIdeal.Pieces Cert.KernelIdeal.Payload Cert.QLinear

variable (m : (ℓ : Loc nD τ sig) → Buf (Elt Ideal) ℓ)

/-- The activations and the weights as the launch finds them. -/
abbrev acts (c : Dev nD) : (⟨2, ![16384, 4096]⟩ : Shape).Idx → EReal := V m c main_v0
abbrev wts (c : Dev nD) : (⟨2, ![4096, 4096]⟩ : Shape).Idx → BitVec 32 := V m c main_arg1

/-- A block product at `(p, q)`, of blocks `x` and `w` that are point `t`'s, advances the running sum by 512 positions. -/
theorem advance (c : Dev nD) (t : Fin cfg0.N) (p q : Fin 1024) (x : Vec Ideal S1024x512 .f32) (w : Vec Ideal S1024x512 .i32)
    (hx : ∀ k : Fin 512, x (ix2 p k) = acts m c (ix2 (rowOf t p) (posOf t k)))
    (hw : ∀ k : Fin 512, w (ix2 q k) = wts m c (ix2 (colOf t q) (posOf t k))) :
    partialDot (acts m c) (wts m c) (rowOf t p) (colOf t q) (512 * (t.val % 8))
        + ∑ k : Fin 512, x (ix2 p k) * intVal (w (ix2 q k))
      = partialDot (acts m c) (wts m c) (rowOf t p) (colOf t q) (512 * (t.val % 8) + 512) := by
  refine partialDot_block (acts m c) (wts m c) (rowOf t p) (colOf t q) (512 * (t.val % 8)) (by omega) _ fun kk => ?_
  rw [hx kk, hw kk]
  rfl

/-- A first step (`t % 8 = 0`): zero, plus the first block. -/
theorem scratch_at_first (c : Dev nD) (t : Fin cfg0.N) (h0 : t.val % 8 = 0) (p q : Fin 1024) :
    (outsAt0 m c t.val t.isLt).2 (ix2 p q)
      = partialDot (acts m c) (wts m c) (rowOf t p) (colOf t q) (512 * (t.val % 8) + 512) := by
  have h1 : ¬t.val % 8 = 7 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
  rw [step_apply, zero_apply, zero_add]
  have e := advance m c t p q (iblk m c 0 t) (iblk m c 1 t) (xblk_apply m c t p) (qblk_apply m c t q)
  rw [h0, Nat.mul_zero, partialDot_zero, zero_add] at e
  rw [e, h0]

/-- A later step (`t % 8 ≠ 0`): what the point before left, plus this step's block. -/
theorem scratch_at_later (c : Dev nD) (t : Fin cfg0.N) (h0 : ¬t.val % 8 = 0) (p q : Fin 1024)
    (ih : (outsAt0 m c (t.val - 1) (Nat.lt_of_le_of_lt (Nat.sub_le _ _) t.isLt)).2 (ix2 p q) = partialDot (acts m c) (wts m c) (rowOf t p) (colOf t q) (512 * (t.val % 8))) :
    (outsAt0 m c t.val t.isLt).2 (ix2 p q)
      = partialDot (acts m c) (wts m c) (rowOf t p) (colOf t q) (512 * (t.val % 8) + 512) := by
  by_cases h1 : t.val % 8 = 7
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
    rw [step_apply, ih]
    exact advance m c t p q (iblk m c 0 t) (iblk m c 1 t) (xblk_apply m c t p) (qblk_apply m c t q)
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans ?_
    rw [step_apply, ih]
    exact advance m c t p q (iblk m c 0 t) (iblk m c 1 t) (xblk_apply m c t p) (qblk_apply m c t q)

/-- What the accumulator holds after every point. -/
theorem scratch_eq (c : Dev nD) : ∀ (n : ℕ) (h : n < cfg0.N) (p q : Fin 1024),
    (outsAt0 m c n h).2 (ix2 p q)
      = partialDot (acts m c) (wts m c) (rowOf ⟨n, h⟩ p) (colOf ⟨n, h⟩ q) (512 * (n % 8) + 512)
  | 0, h, p, q => scratch_at_first m c ⟨0, h⟩ (Nat.zero_mod _) p q
  | n + 1, h, p, q => by
    by_cases h0 : (n + 1) % 8 = 0
    · exact scratch_at_first m c ⟨n + 1, h⟩ h0 p q
    · have hN : n + 1 < 512 := lt_of_lt_of_eq h (show cfg0.N = 512 from N_0)
      have ih := scratch_eq c n (Nat.lt_of_succ_lt h) p q
      have hr : rowOf ⟨n, Nat.lt_of_succ_lt h⟩ p = rowOf ⟨n + 1, h⟩ p :=
        Fin.ext (by show n / 32 * 1024 + p.val = (n + 1) / 32 * 1024 + p.val; omega)
      have hc : colOf ⟨n, Nat.lt_of_succ_lt h⟩ q = colOf ⟨n + 1, h⟩ q :=
        Fin.ext (by show n / 8 % 4 * 1024 + q.val = (n + 1) / 8 % 4 * 1024 + q.val; omega)
      have hk : 512 * (n % 8) + 512 = 512 * ((n + 1) % 8) := by omega
      rw [hr, hc, hk] at ih
      exact scratch_at_later m c ⟨n + 1, h⟩ h0 p q ih

/-- The finished block a last step (`t % 8 = 7`) leaves in the output's staging buffer: the whole contraction, scaled,
    plus the bias. -/
theorem output_eq (c : Dev nD) (t : Fin cfg0.N) (h1 : t.val % 8 = 7) (p q : Fin 1024) :
    (outsAt0 m c t.val t.isLt).1 (ix2 p q)
      = partialDot (acts m c) (wts m c) (rowOf t p) (colOf t q) 4096 * V m c main_v1 (ix2 (0 : Fin 1) (colOf t q))
        + V m c main_v2 (ix2 (0 : Fin 1) (colOf t q)) := by
  have h0 : ¬t.val % 8 = 0 := by omega
  have hs := scratch_eq m c t.val t.isLt p q
  rw [outsAt0_C m c t h0 h1] at hs ⊢
  dsimp only at hs ⊢
  rw [scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2] at hs
  refine (congrFun (output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
  rw [finish_apply, sblk_apply m c t q, bblk_apply m c t q, hs, h1]

end Cert.KernelIdeal.Accum

end
-- ==== Proof.Final.lean ====
/-
  From the blocks to the result array.

  Only the last step of each (row tile, column tile) writes its output block back, and by then the block holds
  `contraction · scale + bias` for its rows and columns (`output_eq`): every written block is the restriction of ONE function
  of the whole arrays, `tile`, and the 16 × 4 written blocks tile the [16384, 4096] result. So the result array ends at
  `tile` of the arrays the launch found.
-/
import proofs.«152317_j82944408420940_1_alg».proof.Proof.Accum

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Accum Cert.QLinear

variable (m : (ℓ : Loc nD τ sig) → Buf (Elt Ideal) ℓ)

/-- Entry `(r, o)` of the flattened result. -/
def tileAt (X : (⟨2, ![16384, 4096]⟩ : Shape).Idx → EReal) (Q : (⟨2, ![4096, 4096]⟩ : Shape).Idx → BitVec 32)
    (S B : (⟨2, ![1, 4096]⟩ : Shape).Idx → EReal) (r : Fin 16384) (o : Fin 4096) : EReal :=
  partialDot X Q r o 4096 * S (ix2 (0 : Fin 1) o) + B (ix2 (0 : Fin 1) o)

/-- The flattened result as one function of the arrays. -/
def tile (X : (⟨2, ![16384, 4096]⟩ : Shape).Idx → EReal) (Q : (⟨2, ![4096, 4096]⟩ : Shape).Idx → BitVec 32)
    (S B : (⟨2, ![1, 4096]⟩ : Shape).Idx → EReal) : (⟨2, ![16384, 4096]⟩ : Shape).Idx → EReal :=
  fun i => tileAt X Q S B ⟨(i 0).val, idx2_lt0 i⟩ ⟨(i 1).val, idx2_lt1 i⟩

/-- The result the launch computes, from the arrays it found. -/
abbrev found (c : Dev nD) : (⟨2, ![16384, 4096]⟩ : Shape).Idx → EReal :=
  tile (V m c main_v0) (V m c main_arg1) (V m c main_v1) (V m c main_v2)

/-- What a last step writes back is its block of `found`. -/
theorem flushed_eq (c : Dev nD) (t : Fin cfg0.N) (hf : (cfg0.win 4).flush t = true) :
    (dats m 0 c).flushed 4 t = ((cfg0.win 4).blk t).view.read (Elt Ideal) (found m c) := by
  have h7 : t.val % 8 = 7 := (flush0_4 t).mp hf
  show (cfg0.win 4).cut (grid0.coords t) ((dats m 0 c).after 4 t) = _
  rw [after0_4]
  funext j
  have hp : (j 0).val < 1024 := (j 0).isLt
  have hq : (j 1).val < 1024 := (j 1).isLt
  have ej : (cfg0.win 4).xinj (grid0.coords t) j = ix2 (⟨(j 0).val, hp⟩ : Fin 1024) (⟨(j 1).val, hq⟩ : Fin 1024) :=
    funext fun a => by match a with | ⟨0, _⟩ => rfl | ⟨1, _⟩ => rfl
  show (outsAt0 m c t.val t.isLt).1 ((cfg0.win 4).xinj (grid0.coords t) j) = _
  rw [ej, output_eq m c t h7, View.read_apply]
  show tileAt (V m c main_v0) (V m c main_arg1) (V m c main_v1) (V m c main_v2) (rowOf t ⟨(j 0).val, hp⟩) (colOf t ⟨(j 1).val, hq⟩)
    = tileAt (V m c main_v0) (V m c main_arg1) (V m c main_v1) (V m c main_v2) _ _
  refine congrArg₂ (tileAt (V m c main_v0) (V m c main_arg1) (V m c main_v1) (V m c main_v2)) (Fin.ext ?_) (Fin.ext ?_)
  · show t.val / 32 * 1024 + (j 0).val = win0_4.index t 0 * 1024 + 1 * (j 0).val
    rw [(idx_o t).1]; omega
  · show t.val / 8 % 4 * 1024 + (j 1).val = win0_4.index t 1 * 1024 + 1 * (j 1).val
    rw [(idx_o t).2]; omega

/-- An index of the result is in point `t`'s block iff each coordinate is in the block's range. -/
theorem mem_blk (t : Fin cfg0.N) (i : S16384x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3).slice (win0_4.rect t)).set ↔ _
  rw [View.set_slice_whole, Rect.mem_set_unit]
  exact Iff.rfl

/-- Every entry of the result lies in the block some last step writes: row tile `r / 1024`, column tile `o / 1024`. -/
theorem covered (i : S16384x4096.Idx) :
    ∃ t : Fin cfg0.N, (cfg0.win 4).flush t = true ∧ i ∈ ((cfg0.win 4).blk t).view.set := by
  have h0 : (i 0).val < 16384 := (i 0).isLt
  have h1 : (i 1).val < 4096 := (i 1).isLt
  have hN : cfg0.N = 512 := N_0
  let t : Fin cfg0.N := ⟨(i 0).val / 1024 * 32 + (i 1).val / 1024 * 8 + 7, by rw [hN]; omega⟩
  have ht : t.val = (i 0).val / 1024 * 32 + (i 1).val / 1024 * 8 + 7 := rfl
  refine ⟨t, (flush0_4 t).mpr (by rw [ht]; omega), ?_⟩
  rw [mem_blk]
  intro a
  match a with
  | ⟨0, _⟩ =>
    show win0_4.index t (0 : Fin 2) * 1024 ≤ (i 0).val ∧ (i 0).val < win0_4.index t (0 : Fin 2) * 1024 + 1024
    rw [(idx_o t).1, ht]; omega
  | ⟨1, _⟩ =>
    show win0_4.index t (1 : Fin 2) * 1024 ≤ (i 1).val ∧ (i 1).val < win0_4.index t (1 : Fin 2) * 1024 + 1024
    rw [(idx_o t).2, ht]; omega

/-- The result array after the launch. -/
theorem final (c : Dev nD) : (dats m 0 c).arrAt 4 cfg0.N = found m c :=
  (dats m 0 c).arrAt_eq_of_cover 4 (found m c) (flushed_eq m c) covered

end Cert.KernelIdeal.Final

end
-- ==== Proof.Layer.lean ====
/-
  The layer as a function of the four arguments, in the two arrangements the programs use.

  For activations `x : [8, 2048, 4096]`, integer weights `q : [4096, 4096]`, scales `s : [4096]` and bias `b : [4096]`,
  at `(n, t, o)`:
      scaledAfter  = (Σ_k x (n, t, k) · q (o, k)) · s o + b o
      scaledBefore = Σ_k x (n, t, k) · (q (o, k) · s o) + b o
  They agree when `x` and `s` are finite (`scale_out`).
-/
import proofs.«152317_j82944408420940_1_alg».proof.Proof.Spec

noncomputable section

namespace Cert.QLinear

open Idealize.ShloMosaic Idealize.ShloMosaic.ValueIdx

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The scale applied once, after the contraction. -/
def scaledAfterAt (x : (⟨3, ![8, 2048, 4096]⟩ : Shape).Idx → EReal) (q : (⟨2, ![4096, 4096]⟩ : Shape).Idx → BitVec 32)
    (s b : (⟨1, ![4096]⟩ : Shape).Idx → EReal) (n : Fin 8) (t : Fin 2048) (o : Fin 4096) : EReal :=
  (∑ k : Fin 4096, x (ix3 n t k) * intVal (q (ix2 o k))) * s (ix1 o) + b (ix1 o)

/-- The weights de-quantised before the contraction. -/
def scaledBeforeAt (x : (⟨3, ![8, 2048, 4096]⟩ : Shape).Idx → EReal) (q : (⟨2, ![4096, 4096]⟩ : Shape).Idx → BitVec 32)
    (s b : (⟨1, ![4096]⟩ : Shape).Idx → EReal) (n : Fin 8) (t : Fin 2048) (o : Fin 4096) : EReal :=
  (∑ k : Fin 4096, x (ix3 n t k) * (intVal (q (ix2 o k)) * s (ix1 o))) + b (ix1 o)

def scaledAfter (x : (⟨3, ![8, 2048, 4096]⟩ : Shape).Idx → EReal) (q : (⟨2, ![4096, 4096]⟩ : Shape).Idx → BitVec 32)
    (s b : (⟨1, ![4096]⟩ : Shape).Idx → EReal) : (⟨3, ![8, 2048, 4096]⟩ : Shape).Idx → EReal :=
  fun i => scaledAfterAt x q s b ⟨(i 0).val, idx3_lt0 i⟩ ⟨(i 1).val, idx3_lt1 i⟩ ⟨(i 2).val, idx3_lt2 i⟩

def scaledBefore (x : (⟨3, ![8, 2048, 4096]⟩ : Shape).Idx → EReal) (q : (⟨2, ![4096, 4096]⟩ : Shape).Idx → BitVec 32)
    (s b : (⟨1, ![4096]⟩ : Shape).Idx → EReal) : (⟨3, ![8, 2048, 4096]⟩ : Shape).Idx → EReal :=
  fun i => scaledBeforeAt x q s b ⟨(i 0).val, idx3_lt0 i⟩ ⟨(i 1).val, idx3_lt1 i⟩ ⟨(i 2).val, idx3_lt2 i⟩

/-- With finite activations and finite scales the two arrangements are one function. -/
theorem scaledAfter_eq_scaledBefore (x : (⟨3, ![8, 2048, 4096]⟩ : Shape).Idx → EReal)
    (q : (⟨2, ![4096, 4096]⟩ : Shape).Idx → BitVec 32) (s b : (⟨1, ![4096]⟩ : Shape).Idx → EReal)
    (hx : ∀ i, ∃ a : ℝ, x i = (a : EReal)) (hs : ∀ i, ∃ a : ℝ, s i = (a : EReal)) :
    scaledAfter x q s b = scaledBefore x q s b := by
  funext i
  unfold scaledAfter scaledBefore scaledAfterAt scaledBeforeAt
  refine congrArg (· + _) ?_
  exact scale_out (fun k : Fin 4096 => x (ix3 _ _ k)) (fun k => (q (ix2 _ k)).toInt) _ (fun k => hx _) (hs _)

end Cert.QLinear

end
-- ==== Proof.KernelValue.lean ====
/-
  The kernel's program, read: reshapes around the launch.

  Before the launch the activations `[8, 2048, 4096]` are flattened to `[16384, 4096]` (row `2048 n + t`) and the scales
  and bias `[4096]` become rows `[1, 4096]`; after it the `[16384, 4096]` result is reshaped back to `[8, 2048, 4096]`.
  A reshape keeps the row-major position, so entry `(n, t, o)` of the program's result is entry `(2048 n + t, o)` of the
  launch's, whose contraction runs over row `(n, t)` of the activations: the arrangement `scaledAfter` of the arguments.
-/
import proofs.«152317_j82944408420940_1_alg».proof.Proof.Final
import proofs.«152317_j82944408420940_1_alg».proof.Proof.Layer
import Idealize.ShloMosaic.Lib.StableHlo.Run
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Final Cert.QLinear

/-! ## Reshapes at an index -/

/-- Flattening the two leading axes: row `2048 n + t` of the flat array is row `(n, t)`. -/
theorem flatten_apply {α : Type} (x : S8x2048x4096.Idx → α) (h : S8x2048x4096.ShapeCasts S16384x4096)
    (n : Fin 8) (t : Fin 2048) (k : Fin 4096) (hr : n.val * 2048 + t.val < 16384) :
    shapeCast S16384x4096 x h (ix2 (⟨n.val * 2048 + t.val, hr⟩ : Fin 16384) k) = x (ix3 n t k) :=
  shapeCast_apply x h _ _ (by
    rw [Shape.rowMajor_val_three, Shape.rowMajor_val_two]
    show (n.val * 2048 + t.val) * 4096 + k.val = (n.val * 2048 + t.val) * 4096 + k.val
    rfl)

/-- The inverse reshape. -/
theorem unflatten_apply {α : Type} (y : S16384x4096.Idx → α) (h : S16384x4096.ShapeCasts S8x2048x4096)
    (n : Fin 8) (t : Fin 2048) (o : Fin 4096) (hr : n.val * 2048 + t.val < 16384) :
    shapeCast S8x2048x4096 y h (ix3 n t o) = y (ix2 (⟨n.val * 2048 + t.val, hr⟩ : Fin 16384) o) :=
  shapeCast_apply y h _ _ (by
    rw [Shape.rowMajor_val_three, Shape.rowMajor_val_two]
    show (n.val * 2048 + t.val) * 4096 + o.val = (n.val * 2048 + t.val) * 4096 + o.val
    rfl)

variable (m : (ℓ : Loc nD τ sig) → Buf (Elt Ideal) ℓ) (ρ : Dev nD → PrngReg)

/-! ## The arrays the launch finds -/

theorem acts_eq (c : Dev nD) : (V m c main_v0 : S16384x4096.Idx → EReal)
    = shapeCast S16384x4096 (m ((c : Thread nD τ).loc main_arg0)) Facts₀.shapeCasts_S8x2048x4096_S16384x4096 := by
  show StableHlo.after hostOps0 (fun b => m (c, b)) (Proc.devRef .tc main_v0) = _
  after_results
  rfl

theorem scale_eq (c : Dev nD) : (V m c main_v1 : S1x4096.Idx → EReal)
    = shapeCast S1x4096 (m ((c : Thread nD τ).loc main_arg2)) Facts₀.shapeCasts_S4096_S1x4096 := by
  show StableHlo.after hostOps0 (fun b => m (c, b)) (Proc.devRef .tc main_v1) = _
  after_results
  rfl

theorem bias_eq (c : Dev nD) : (V m c main_v2 : S1x4096.Idx → EReal)
    = shapeCast S1x4096 (m ((c : Thread nD τ).loc main_arg3)) Facts₀.shapeCasts_S4096_S1x4096 := by
  show StableHlo.after hostOps0 (fun b => m (c, b)) (Proc.devRef .tc main_v2) = _
  after_results
  rfl

/-- The launch's result at row `2048 n + t`, column `o`, in terms of the arguments. -/
theorem found_apply (c : Dev nD) (n : Fin 8) (t : Fin 2048) (o : Fin 4096) (hr : n.val * 2048 + t.val < 16384) :
    found m c (ix2 (⟨n.val * 2048 + t.val, hr⟩ : Fin 16384) o)
      = scaledAfterAt (m ((c : Thread nD τ).loc main_arg0)) (m ((c : Thread nD τ).loc main_arg1)) (m ((c : Thread nD τ).loc main_arg2)) (m ((c : Thread nD τ).loc main_arg3)) n t o := by
  show tileAt (V m c main_v0) (V m c main_arg1) (V m c main_v1) (V m c main_v2) ⟨n.val * 2048 + t.val, hr⟩ o = _
  unfold tileAt scaledAfterAt
  rw [partialDot_full, acts_eq, scale_eq, bias_eq, V_main_arg1, shapeCast_a_1a_apply, shapeCast_a_1a_apply]
  refine congrArg (· * _ + _) (Finset.sum_congr rfl fun k _ => ?_)
  rw [flatten_apply]

/-! ## The program's result -/

/-- After the reshape back, the result is `scaledAfter` of the arguments. -/
theorem tail_eq (c : Dev nD) : Pipeline.afterTail₀ cfgs (dats m) 0 (V0 m) [hostOps1] c main_v4
    = scaledAfter (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v4) = _
  after_results
  funext i
  show shapeCast S8x2048x4096 (Pipeline.withArrays (cfgs 0).spec c (V0 m c) (fun w => (dats m 0 c).arrAt w (cfgs 0).N)
    (Proc.tc.devRef main_v3)) Facts₀.shapeCasts_S16384x4096_S8x2048x4096 i = _
  rw [show Pipeline.withArrays (cfgs 0).spec c (V0 m c) (fun w => (dats m 0 c).arrAt w (cfgs 0).N) (Proc.tc.devRef main_v3)
      = found m c from (Pipeline.withArrays_arr spec0 launch0.win.arr_inj c _ _ 4).trans (final m c)]
  have hi : i = ix3 (⟨(i 0).val, idx3_lt0 i⟩ : Fin 8) (⟨(i 1).val, idx3_lt1 i⟩ : Fin 2048) (⟨(i 2).val, idx3_lt2 i⟩ : Fin 4096) :=
    funext fun a => by match a with | ⟨0, _⟩ => rfl | ⟨1, _⟩ => rfl | ⟨2, _⟩ => rfl
  obtain ⟨n, t, o, rfl⟩ : ∃ (n : Fin 8) (t : Fin 2048) (o : Fin 4096), i = ix3 n t o := ⟨_, _, _, hi⟩
  have hr : n.val * 2048 + t.val < 16384 := by omega
  rw [unflatten_apply _ _ n t o hr, found_apply m c n t o hr]
  rfl

/-- The run of the kernel's program at the ideal instance: every weakly fair execution terminates with the result at
    `scaledAfter` of the arguments, and the arguments unchanged. -/
theorem run : θ_run defs (onTc (τ := τ) (main (F := Ideal))) ⟨m, fun _ => 0, ρ⟩ fun r => ∀ c : Dev nD,
      r.2.mem ((c.tc : Thread nD τ).loc main_v4)
        = scaledAfter (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefValue.lean ====
/-
  The reference, entry by entry: the weights are converted, multiplied by the scale column (the scales broadcast along the
  contraction axis), contracted against the activations, and the bias row (broadcast over batch and sequence) is added.
  At `(n, t, o)` that is `Σ_k x (n, t, k) · (q (o, k) · s o) + b o`: the arrangement `scaledBefore`.
-/
import proofs.«152317_j82944408420940_1_alg».proof.Proof.Gen.ReferenceIdeal.Read
import proofs.«152317_j82944408420940_1_alg».proof.Proof.Layer

noncomputable section

namespace Cert.ReferenceIdeal.RefValue

open Idealize.ShloMosaic Idealize.ShloMosaic.ValueIdx
open Cert.ReferenceIdeal Cert.ReferenceIdeal.Read Cert.QLinear

theorem reference_eq (x0 : (⟨S8x2048x4096, .f32⟩ : BufTy).Contents (Elt Ideal)) (x1 : (⟨S4096x4096, .i32⟩ : BufTy).Contents (Elt Ideal))
    (x2 x3 : (⟨S4096, .f32⟩ : BufTy).Contents (Elt Ideal)) :
    val_main_v7 (F := Ideal) x0 x1 x2 x3 = scaledBefore x0 x1 x2 x3 := by
  funext i
  have el : ∀ k : Fin 4096, lidx_main_v4 i k = ix3 (⟨(i 0).val, idx3_lt0 i⟩ : Fin 8) (⟨(i 1).val, idx3_lt1 i⟩ : Fin 2048) k :=
    fun k => funext fun a => by match a with | ⟨0, _⟩ => rfl | ⟨1, _⟩ => rfl | ⟨2, _⟩ => rfl
  have er : ∀ k : Fin 4096, ridx_main_v4 i k = ix2 (⟨(i 2).val, idx3_lt2 i⟩ : Fin 4096) k :=
    fun k => funext fun a => by match a with | ⟨0, _⟩ => rfl | ⟨1, _⟩ => rfl
  have es : ∀ k : Fin 4096, idx_main_v1 (idx_main_v2 (ix2 (⟨(i 2).val, idx3_lt2 i⟩ : Fin 4096) k)) = ix1 (⟨(i 2).val, idx3_lt2 i⟩ : Fin 4096) :=
    fun k => funext fun a => by match a with | ⟨0, _⟩ => rfl
  have eb : idx_main_v5 (idx_main_v6 i) = ix1 (⟨(i 2).val, idx3_lt2 i⟩ : Fin 4096) :=
    funext fun a => by match a with | ⟨0, _⟩ => rfl
  rw [val_main_v7_apply, val_main_v4_apply, val_main_v6_apply, val_main_v5_apply]
  simp only [val_main_v3_apply, val_main_v0_apply, val_main_v2_apply, val_main_v1_apply, el, er, es, eb,
    Ideal.addf_def, Ideal.mulf_def]
  rfl

end Cert.ReferenceIdeal.RefValue

end
-- ==== Proof.Finite.lean ====
/-
  The precondition read back: every float input is finite.

  The precondition is `all (|x| < +∞) ∧ all (|scales| < +∞) ∧ all (|bias| < +∞)`, computed as three `and`-reductions joined by
  `and`. If the result is 1, every comparison was 1; and an extended real whose absolute value `max x (-x)` is strictly
  below `+∞` is neither infinity, so it is a real number.
-/
import proofs.«152317_j82944408420940_1_alg».proof.Pre_finite_inputs
import Idealize.ShloMosaic.PureOps.Ideal
import Idealize.ShloMosaic.Lib.ReduceAll
import Idealize.ShloMosaic.Lib.ValueIdx

noncomputable section

namespace Cert.QLinear.Finite

open Idealize.ShloMosaic Cert.Pre_finite_inputs

instance : Subsingleton S_.Idx := ⟨fun a b => funext fun d => d.elim0⟩

/-- The f32 word `0x7F800000` denotes `+∞`. -/
theorem ofBits_inf : Ideal.ofBits .f32 0x7F800000#32 = (⊤ : EReal) := by simp [Ideal.ofBits, Ideal.ieee]

/-- An extended real with `|x| < +∞` is a real. -/
theorem real_of_abs_lt (x : EReal) (h : Ideal.cmp .olt (max x (-x)) (Ideal.ofBits .f32 0x7F800000#32) = 1#1) :
    ∃ a : ℝ, x = (a : EReal) := by
  rw [ofBits_inf] at h
  induction x using EReal.rec with
  | bot => exfalso; simp [Ideal.cmp] at h
  | top => exfalso; simp [Ideal.cmp] at h
  | coe r => exact ⟨r, rfl⟩

variable [Facts]

/-- Under the precondition the activations, the scales and the bias are real numbers, entry by entry. -/
theorem finite_of_pre (a0 : FVec Ideal S8x2048x4096 .f32) (a1 : IVec S4096x4096 32) (a2 a3 : FVec Ideal S4096 .f32)
    (h : fn (F := Ideal) a0 a1 a2 a3 = fun _ => 1#1) :
    (∀ i, ∃ r : ℝ, a0 i = (r : EReal)) ∧ (∀ i, ∃ r : ℝ, a2 i = (r : EReal)) ∧ (∀ i, ∃ r : ℝ, a3 i = (r : EReal)) := by
  have h1 := congrFun h ValueIdx.ix0
  dsimp only [fn] at h1
  obtain ⟨h12, h3⟩ := IntOp.andi_eq_one.1 h1
  obtain ⟨hx, hs⟩ := IntOp.andi_eq_one.1 h12
  refine ⟨fun i => real_of_abs_lt (a0 i) ?_, fun i => real_of_abs_lt (a2 i) ?_, fun i => real_of_abs_lt (a3 i) ?_⟩
  · exact Host.reduce_andi_all _ _ _ _ _ hx i
  · exact Host.reduce_andi_all _ _ _ _ _ hs i
  · exact Host.reduce_andi_all _ _ _ _ _ h3 i

end Cert.QLinear.Finite

end
-- ==== Proof.lean ====
/-
  A quantised linear layer, `y = x · (q · scale)ᵀ + bias` with integer weights `q` and one scale per output channel, as a
  Pallas kernel against its jnp reference, over the extended reals.

  The kernel tiles the flattened activations `[16384, 4096]` and the weights `[4096, 4096]` into 1024-row tiles and walks
  the contraction axis in eight steps of 512, accumulating `x_blk · q_blkᵀ` in a scratch tile; at the last step it
  multiplies the accumulated tile by the scale row and adds the bias row. So entry `(n, t, o)` of its result is
      (Σ_{k < 4096} x (n, t, k) · q (o, k)) · scale o + bias o,
  the eight block sums being one sum over `k` (addition of extended reals is associative and commutative), the bf16
  roundings the identity, and the integers converting to themselves.
  The reference de-quantises first: `Σ_k x (n, t, k) · (q (o, k) · scale o) + bias o`.
  The two differ by pulling the factor `scale o` out of the sum. That is distributivity, which the extended reals lack
  (an infinite scale against products of both signs gives `∞ · 0 = 0` on one side and `∞ - ∞` on the other), and which
  holds once `x` and `scale` are finite — what the precondition says. The integer weights are finite by nature.

  The frames of the two kernel programs are the generated ones; the reference's frame is its generated run; the ideal
  pass rewrote nothing, so the idealisation claim is trivial.
-/
import proofs.«152317_j82944408420940_1_alg».proof.Defs
import proofs.«152317_j82944408420940_1_alg».proof.Proof.Gen.Kernel
import proofs.«152317_j82944408420940_1_alg».proof.Proof.Gen.Kernel.Skeleton
import proofs.«152317_j82944408420940_1_alg».proof.Proof.Gen.Kernel.Launch
import proofs.«152317_j82944408420940_1_alg».proof.Proof.Gen.Kernel.Points
import proofs.«152317_j82944408420940_1_alg».proof.Proof.Gen.Kernel.Frame
import proofs.«152317_j82944408420940_1_alg».proof.Proof.Gen.KernelIdeal
import proofs.«152317_j82944408420940_1_alg».proof.Proof.Gen.KernelIdeal.Skeleton
import proofs.«152317_j82944408420940_1_alg».proof.Proof.Gen.KernelIdeal.Launch
import proofs.«152317_j82944408420940_1_alg».proof.Proof.Gen.KernelIdeal.Points
import proofs.«152317_j82944408420940_1_alg».proof.Proof.Gen.KernelIdeal.Frame
import proofs.«152317_j82944408420940_1_alg».proof.Proof.Gen.ReferenceIdeal
import proofs.«152317_j82944408420940_1_alg».proof.Proof.Gen.Pre_finite_inputs
import proofs.«152317_j82944408420940_1_alg».proof.Proof.Gen.ReferenceIdeal.Run
import proofs.«152317_j82944408420940_1_alg».proof.Proof.Gen.ReferenceIdeal.Read
import proofs.«152317_j82944408420940_1_alg».proof.Proof.KernelValue
import proofs.«152317_j82944408420940_1_alg».proof.Proof.RefValue
import proofs.«152317_j82944408420940_1_alg».proof.Proof.Finite
import Idealize.ShloMosaic.Adequacy
import Idealize.ShloMosaic.Init

noncomputable section

namespace Cert.Proof

open Idealize.ShloMosaic Idealize.SL.Sem

/-- The reference runs and leaves its arguments alone: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at one array: the kernel's at the scale-after-contraction arrangement of the arguments, the
    reference's at the scale-before arrangement of arguments that agree, and under the precondition the activations and
    the scales are finite, so the two arrangements coincide. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2.1, (hagree c).2.2.2]
  obtain ⟨hx, hs, -⟩ := Cert.QLinear.Finite.finite_of_pre _ _ _ _ (hpre c)
  exact (Cert.QLinear.scaledAfter_eq_scaledBefore _ _ _ _ hx hs).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
